-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩

abbrev nBuf : Space → Nat
  | .hbm => 47
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x128, .bf16⟩
  | .hbm, ⟨45, _⟩ => ⟨S100000x1, .f32⟩
  | .hbm, ⟨46, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x1, .f32⟩
  | .local _ .vmem, ⟨9, _⟩ => ⟨S4000x1, .f32⟩
  | .local _ .vmem, ⟨10, _⟩ => ⟨S128x128, .bf16⟩
  | .local _ .vmem, ⟨11, _⟩ => ⟨S128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's whole run, with its RESULT named.

  The program is two grid launches among stretches of host operations.  Its run is cut at eight segment
  boundaries; at each boundary the contents of every buffer are a function of the launch memory, the fold
  `W0 … W8` through the host operations and the launches' write-backs.  After the run the result array holds
  the last boundary's contents `W8 m ρ c` at the result's reference, and each of the five argument arrays
  is as launched (no host operation and no launch writes one).
-/
import proofs.«177749_j70600672411872_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at
    the last boundary's contents of its buffer, and the five argument arrays end as launched. -/
theorem run_result : θ_run defs (onTc (τ := τ) (main (F := F))) ⟨m, fun _ => 0, ρ⟩ (fun r => ∀ c : Dev nD,
      r.2.mem ((c.tc : Thread nD τ).loc main_v27) = W8 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v27 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Whole

end
-- ==== Proof.RowScale.lean ====
/-
  The first launch: every row of `x` rescaled by that row's normaliser.

  The grid has 25 points; point `t` loads rows `4000 t … 4000 t + 3999` of `x` (a 4000 × 128 block) and the
  same rows of the normaliser column (a 4000 × 1 block), multiplies each row by its normaliser entry and writes
  the 4000 × 128 product back to the same rows of the output.  The 25 row blocks tile the 100000 rows, so after
  the launch the output array is, index by index, `x (r, q) · n (r, 0)` — whatever the two operand arrays hold
  when the launch is entered.
-/
import proofs.«177749_j70600672411872_1_alg».proof.Proof.Gen.KernelIdeal.Frame
import Idealize.ShloMosaic.Lib.Pipeline.Value
import Idealize.ShloMosaic.Lib.ValueIdx

set_option maxRecDepth 16384

noncomputable section

namespace Cert.KernelIdeal.RowScale

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The column entry of a row: `(r, q) ↦ (r, 0)`, in the whole array … -/
abbrev colOfRow (i : S100000x128.Idx) : S100000x1.Idx := fun a => match a with
  | ⟨0, _⟩ => ⟨(i 0).val, (i 0).isLt⟩
  | ⟨1, _⟩ => ⟨0, Nat.one_pos⟩
/-- … and inside one block of 4000 rows. -/
abbrev colOfRowBlk (j : S4000x128.Idx) : S4000x1.Idx := fun a => match a with
  | ⟨0, _⟩ => ⟨(j 0).val, (j 0).isLt⟩
  | ⟨1, _⟩ => ⟨0, Nat.one_pos⟩

/-- Every row of `x` times that row's entry of the column `n`. -/
abbrev scaled (x : S100000x128.Idx → Elt F .f32) (n : S100000x1.Idx → Elt F .f32) : S100000x128.Idx → Elt F .f32 :=
  fun i => FloatOps.mulf (x i) (n (colOfRow i))

/-- The body's arithmetic on one pair of blocks: the column is broadcast along the 128 lanes and multiplied in. -/
theorem payload_eq (x0 : Vec F S4000x128 .f32) (x1 : Vec F S4000x1 .f32) :
    k0_pay1 x0 x1 = fun j => FloatOps.mulf (x0 j) (x1 (colOfRowBlk j)) := by
  funext j
  unfold k0_pay1
  show FloatOps.mulf (x0 j) (broadcastTo S4000x128 (shapeCast S4000x1 x1 shapeCasts_S4000x1_S4000x1) broadcasts_S4000x1_S4000x128 j) = _
  rw [shapeCast_self]
  exact congrArg (FloatOps.mulf (x0 j)) (broadcastTo_apply x1 broadcasts_S4000x1_S4000x128 j (colOfRowBlk j) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl]))

/-- The three index maps over the grid: all three windows sit at row block `t`, column block 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 24
    ∧ win0_2.index t (1 : Fin 2) = 0 :=
  (by decide +kernel : ∀ t : Fin grid0.N, _)

/-- Every one of the 25 row blocks is some point's. -/
theorem index_onto : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the rescaled array. -/
theorem flushed_eq (c : Dev nD) (t : Fin cfg0.N) :
    (dat0 V c).flushed 2 t = ((cfg0.win 2).blk t).view.read (Elt F) (scaled (V c main_arg0) (V c main_v13)) := by
  show (cfg0.win 2).cut (grid0.coords t) ((dat0 V c).after 2 t) = _
  rw [after0_2]
  unfold out0_2
  rw [View.canon_unit_zero zero_off]
  simp only [View.ld_unit_zero (S := S4000x128) zero_off, View.ld_unit_zero (S := S4000x1) zero_off]
  rw [payload_eq]
  obtain ⟨e0, e1, e2, e3, e4, e5⟩ := index_facts t
  funext j
  show FloatOps.mulf (V c main_arg0 (((cfg0.win 0).blk t).view.emb j)) (V c main_v13 (((cfg0.win 1).blk t).view.emb (colOfRowBlk j)))
     = FloatOps.mulf (V c main_arg0 (((cfg0.win 2).blk t).view.emb j)) (V c main_v13 (colOfRow (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (colOfRowBlk j) = colOfRow (((cfg0.win 2).blk t).view.emb j) := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 1 + 1 * 0 = 0; omega
  rw [h0, h1]

/-- An index of the array is in point `t`'s block iff each coordinate is in the block's range on its axis. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v14).slice (win0_2.rect t)).set ↔ _
  rw [View.set_slice_whole, Rect.mem_set_unit]
  exact Iff.rfl

/-- The row blocks tile the array: row `r` is in the block of point `r / 4000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- THE OUTPUT ARRAY after the launch: the rescaled array, of the two operand arrays as the launch finds them. -/
theorem array_eq (c : Dev nD) : (dat0 V c).arrAt 2 cfg0.N = scaled (V c main_arg0) (V c main_v13) :=
  (dat0 V c).arrAt_eq_of_cover 2 _ (fun t _ => flushed_eq V c t) covered

end Cert.KernelIdeal.RowScale

end
-- ==== Proof.BlockProduct.lean ====
/-
  The second launch: rescale, multiply by the weight matrix, add the bias.

  The grid has 25 points; point `t` loads rows `4000 t … 4000 t + 3999` of the aggregated features `a`
  (4000 × 128) and of the normaliser column `n` (4000 × 1), and — the same at every point — the whole
  128 × 128 weight matrix `w` and the bias vector `b`.  It multiplies each row of `a` by its normaliser entry,
  takes the matrix product with `w` into a zero accumulator, adds `b` to every row and writes the 4000 × 128
  result back to the same rows of the output.  On the extended reals a change of float format is the identity
  and a matrix product into zero is the plain sum of products over the contracted index, so an entry is
  `(∑ k, (a (r, k) · n (r, 0)) · w (k, q)) + b q`.  The row blocks tile the 100000 rows, hence after the launch
  the output array is that function of the four operand arrays as the launch finds them.
-/
import proofs.«177749_j70600672411872_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockProduct

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a; rfl

/-- The row and the lane of an index of the whole array … -/
abbrev rowOf (i : S100000x128.Idx) : Fin 100000 := ⟨(i 0).val, (i 0).isLt⟩
abbrev laneOf (i : S100000x128.Idx) : Fin 128 := ⟨(i 1).val, (i 1).isLt⟩
/-- … and of an index inside one block of 4000 rows. -/
abbrev rowOfB (j : S4000x128.Idx) : Fin 4000 := ⟨(j 0).val, (j 0).isLt⟩
abbrev laneOfB (j : S4000x128.Idx) : Fin 128 := ⟨(j 1).val, (j 1).isLt⟩

/-- Rows of `a` rescaled by the column `n`, times the matrix `w`, plus the row `b`. -/
abbrev product (a : (⟨S100000x128, .f32⟩ : BufTy).Contents (Elt Ideal)) (n : (⟨S100000x1, .f32⟩ : BufTy).Contents (Elt Ideal))
    (w : (⟨S128x128, .bf16⟩ : BufTy).Contents (Elt Ideal)) (b : (⟨S128, .f32⟩ : BufTy).Contents (Elt Ideal)) :
    (⟨S100000x128, .f32⟩ : BufTy).Contents (Elt Ideal) :=
  fun i => (∑ k : Fin 128, (a (ix2 (rowOf i) k) * n (ix2 (rowOf i) (0 : Fin 1))) * w (ix2 k (laneOf i))) + b (ix1 (laneOf i))

/-! ## The contraction's operand indices: the left operand at (row, k), the right at (k, lane) -/

theorem lhs_row (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_k (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem rhs_k (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem rhs_lane (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's arithmetic on one point's blocks, at row `p` and lane `q` of the block. -/
theorem payload_at (v0 : Vec Ideal S4000x128 .f32) (v2 : Vec Ideal S4000x1 .f32) (v7 : Vec Ideal S128x128 .bf16) (v10 : Vec Ideal S128 .f32)
    (p : Fin 4000) (q : Fin 128) :
    k1_pay1 v0 v2 v7 v10 (ix2 p q) = (∑ k : Fin 128, (v0 (ix2 p k) * v2 (ix2 p (0 : Fin 1))) * v7 (ix2 k q)) + v10 (ix1 q) := by
  unfold k1_pay1
  show (FloatOps.matmul (F := Ideal) dot_S4000x128_S128x128_S4000x128_1_0_0_1_n_n none
          (truncf .bf16 (mulf (shapeCast S4000x128 v0 shapeCasts_S4000x128_S4000x128) (broadcastTo S4000x128 (shapeCast S4000x1 v2 shapeCasts_S4000x1_S4000x1) broadcasts_S4000x1_S4000x128)) bitsLt_bf16_f32)
          (shapeCast S128x128 v7 shapeCasts_S128x128_S128x128) (constant (F := Ideal) S4000x128 .f32 0x00000000#32) (ix2 p q))
        + (broadcastTo S4000x128 (shapeCast S1x128 v10 shapeCasts_S128_S1x128) broadcasts_S1x128_S4000x128 (ix2 p q)) = _
  simp only [shapeCast_self]
  refine congrArg₂ (· + ·) ?_ ?_
  · refine (Ideal.matmul_constant_zero_apply (φ₁ := .bf16) (φ₂ := .bf16) dot_S4000x128_S128x128_S4000x128_1_0_0_1_n_n none _ _ (ix2 p q)).trans ?_
    rw [← Equiv.sum_comp (ValueIdx.contrEquiv1 dot_S4000x128_S128x128_S4000x128_1_0_0_1_n_n 128 rfl rfl).symm]
    refine Finset.sum_congr rfl fun k _ => ?_
    have hk := ValueIdx.contrEquiv1_symm_val dot_S4000x128_S128x128_S4000x128_1_0_0_1_n_n 128 rfl rfl k
    have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
      match a with
      | ⟨0, _⟩ => exact lhs_row _ _
      | ⟨1, _⟩ => exact (lhs_k _ _).trans hk)
    have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
      match a with
      | ⟨0, _⟩ => exact (rhs_k _ _).trans hk
      | ⟨1, _⟩ => exact rhs_lane _ _)
    rw [el, er]
    refine congrArg (· * v7 (ix2 k q)) ?_
    show v0 (ix2 p k) * broadcastTo S4000x128 v2 broadcasts_S4000x1_S4000x128 (ix2 p k) = _
    refine congrArg (v0 (ix2 p k) * ·) ?_
    exact broadcastTo_apply v2 broadcasts_S4000x1_S4000x128 (ix2 p k) (ix2 p (0 : Fin 1)) (fun a => match a with
      | ⟨0, _⟩ => by show p.val = if (4000 : Nat) = 1 then 0 else p.val; rw [if_neg (by decide)]
      | ⟨1, _⟩ => by show 0 = if (1 : Nat) = 1 then 0 else k.val; rw [if_pos rfl])
  · exact (broadcastTo_1b_ab_apply _ broadcasts_S1x128_S4000x128 p q).trans (shapeCast_a_1a_apply v10 shapeCasts_S128_S1x128 0 q)

/-- The same as one function of the block index. -/
theorem payload_eq (v0 : Vec Ideal S4000x128 .f32) (v2 : Vec Ideal S4000x1 .f32) (v7 : Vec Ideal S128x128 .bf16) (v10 : Vec Ideal S128 .f32) :
    k1_pay1 v0 v2 v7 v10 = fun j => (∑ k : Fin 128, (v0 (ix2 (rowOfB j) k) * v2 (ix2 (rowOfB j) (0 : Fin 1))) * v7 (ix2 k (laneOfB j))) + v10 (ix1 (laneOfB j)) := by
  funext j
  obtain ⟨p, q, rfl⟩ : ∃ (p : Fin 4000) (q : Fin 128), j = ix2 p q := ⟨j 0, j 1, eq_ix2 j⟩
  exact payload_at v0 v2 v7 v10 p q

/-- The four operand arrays as the launch finds them, at their array types. -/
abbrev featArr (c : Dev nD) : (⟨S100000x128, .f32⟩ : BufTy).Contents (Elt Ideal) := V c main_v24
abbrev normArr (c : Dev nD) : (⟨S100000x1, .f32⟩ : BufTy).Contents (Elt Ideal) := V c main_v26
abbrev weightArr (c : Dev nD) : (⟨S128x128, .bf16⟩ : BufTy).Contents (Elt Ideal) := V c main_v25
abbrev biasArr (c : Dev nD) : (⟨S128, .f32⟩ : BufTy).Contents (Elt Ideal) := V c main_arg4

/-- The five index maps over the grid: the row-blocked windows (features, normaliser, output) sit at row block `t`,
    the weight matrix and the bias at block 0 at every point. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) ≤ 24
    ∧ win1_4.index t (1 : Fin 2) = 0 :=
  (by decide +kernel : ∀ t : Fin grid1.N, _)

/-- Every one of the 25 row blocks is some point's. -/
theorem index_onto : ∀ q0 : Fin 25, ∃ t : Fin cfg1.N, win1_4.index t = ![q0.val, 0] :=
  (by decide +kernel : ∀ q0 : Fin 25, ∃ t : Fin grid1.N, win1_4.index t = ![q0.val, 0])

/-- What point `t` writes back is block `t` of `product` of the operand arrays. -/
theorem flushed_eq (c : Dev nD) (t : Fin cfg1.N) :
    (dat1 V c).flushed 4 t = ((cfg1.win 4).blk t).view.read (Elt Ideal) (product (featArr V c) (normArr V c) (weightArr V c) (biasArr V c)) := by
  show (cfg1.win 4).cut (grid1.coords t) ((dat1 V c).after 4 t) = _
  rw [after1_4]
  unfold out1_4
  rw [View.canon_unit_zero zero_off2]
  simp only [View.ld_unit_zero (S := S4000x128) zero_off2, View.ld_unit_zero (S := S4000x1) zero_off2,
    View.ld_unit_zero (S := S128x128) zero_off2, View.ld_unit_zero (S := S128) zero_off1]
  rw [payload_eq]
  obtain ⟨e0, e1, e2, e3, e4, e5, e6, e7, e8⟩ := index_facts t
  funext j
  show (∑ k : Fin 128, (featArr V c (((cfg1.win 0).blk t).view.emb (ix2 (rowOfB j) k)) * normArr V c (((cfg1.win 1).blk t).view.emb (ix2 (rowOfB j) (0 : Fin 1))))
          * weightArr V c (((cfg1.win 2).blk t).view.emb (ix2 k (laneOfB j)))) + biasArr V c (((cfg1.win 3).blk t).view.emb (ix1 (laneOfB j)))
     = (∑ k : Fin 128, (featArr V c (ix2 (rowOf (((cfg1.win 4).blk t).view.emb j)) k) * normArr V c (ix2 (rowOf (((cfg1.win 4).blk t).view.emb j)) (0 : Fin 1)))
          * weightArr V c (ix2 k (laneOf (((cfg1.win 4).blk t).view.emb j)))) + biasArr V c (ix1 (laneOf (((cfg1.win 4).blk t).view.emb j)))
  have h0 : ∀ k : Fin 128, ((cfg1.win 0).blk t).view.emb (ix2 (rowOfB j) k) = ix2 (rowOf (((cfg1.win 4).blk t).view.emb j)) k := fun k => by
    funext a; apply Fin.ext
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 128 + 1 * k.val = k.val; omega
  have h1 : ((cfg1.win 1).blk t).view.emb (ix2 (rowOfB j) (0 : Fin 1)) = ix2 (rowOf (((cfg1.win 4).blk t).view.emb j)) (0 : Fin 1) := by
    funext a; apply Fin.ext
    match a with
    | ⟨0, _⟩ => show win1_1.index t (0 : Fin 2) * 4000 + 1 * (j 0).val = win1_4.index t (0 : Fin 2) * 4000 + 1 * (j 0).val; omega
    | ⟨1, _⟩ => show win1_1.index t (1 : Fin 2) * 1 + 1 * 0 = 0; omega
  have h2 : ∀ k : Fin 128, ((cfg1.win 2).blk t).view.emb (ix2 k (laneOfB j)) = ix2 k (laneOf (((cfg1.win 4).blk t).view.emb j)) := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have h3 : ((cfg1.win 3).blk t).view.emb (ix1 (laneOfB j)) = ix1 (laneOf (((cfg1.win 4).blk t).view.emb j)) := by
    funext a; apply Fin.ext
    match a with
    | ⟨0, _⟩ => show win1_3.index t (0 : Fin 1) * 128 + 1 * (j 1).val = win1_4.index t (1 : Fin 2) * 128 + 1 * (j 1).val; omega
  rw [h1, h3]
  exact congrArg (· + _) (Finset.sum_congr rfl fun k _ => by rw [h0 k, h2 k])

/-- An index of the array is in point `t`'s block iff each coordinate is in the block's range on its axis. -/
theorem mem_block (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v27).slice (win1_4.rect t)).set ↔ _
  rw [View.set_slice_whole, Rect.mem_set_unit]
  exact Iff.rfl

/-- The row blocks tile the array: row `r` is in the block of point `r / 4000`. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := index_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- THE OUTPUT ARRAY after the launch: `product` of the four operand arrays as the launch finds them. -/
theorem array_eq (c : Dev nD) :
    (dat1 V c).arrAt 4 cfg1.N = product (featArr V c) (normArr V c) (weightArr V c) (biasArr V c) :=
  (dat1 V c).arrAt_eq_of_cover 4 _ (fun t _ => flushed_eq V c t) covered

end Cert.KernelIdeal.BlockProduct

end
-- ==== Proof.Entries.lean ====
/-
  What the two launches find in their operand buffers.

  Before the first launch the host computes, from the edge endpoints alone, the two degree normalisers: for an index
  vector `e` it counts how often each node occurs (a scatter-add of ones), clips the count below at 1 and raises it
  to the power −1/2.  The first launch reads `x` and the source-side normaliser as a column.  Between the launches
  the host gathers the rescaled rows along the sources and scatter-adds them along the destinations; the second
  launch reads that aggregate, the destination-side normaliser as a column, the weight matrix after a change of
  float format, and the bias.  Every one of these host stages is the very operation the reference applies, so
  each is named by the reference's own stage function of the launch contents of the argument buffers.
-/
import proofs.«177749_j70600672411872_1_alg».proof.Proof.Gen.KernelIdeal.Frame
import proofs.«177749_j70600672411872_1_alg».proof.Proof.Gen.ReferenceIdeal.Read
import Idealize.ShloMosaic.Lib.StableHlo.Run

set_option maxRecDepth 16384

noncomputable section

namespace Cert.KernelIdeal.Entries

open Cert.KernelIdeal Cert.KernelIdeal.Gen Idealize.ShloMosaic Idealize.ShloMosaic.TcCoe Idealize.SL.Sem Idealize.ShloMosaic.StableHlo

variable {F : FTy → Type} [FloatOps F]

/-- Gather the rows of `h` along the sources `x1` (a negative index wrapped once) and add them up along the
    destinations `x2`, from zero: the message-passing step, as the reference spells it. -/
def aggregate (h : (⟨S100000x128, .f32⟩ : BufTy).Contents (Elt F)) (x1 x2 : (⟨S1600000, .i32⟩ : BufTy).Contents (Elt F)) :
    (⟨S100000x128, .f32⟩ : BufTy).Contents (Elt F) :=
  Host.scatterAdd Cert.ReferenceIdeal.scatter_S100000x128_S1600000x1_S1600000x128_1_0_0_1 (Cert.ReferenceIdeal.Read.val_main_v23 (F := F))
    (Cert.ReferenceIdeal.Read.val_main_v24 (F := F) x2)
    (Host.gather Cert.ReferenceIdeal.gather_S100000x128_S1600000x1_S1600000x128_1_0_n_n_0_1_1128 h (Cert.ReferenceIdeal.Read.val_main_v21 (F := F) x1))

/-- A vector of 100000 entries laid out as a 100000 × 1 column. -/
def asColumn (n : (⟨S100000, .f32⟩ : BufTy).Contents (Elt F)) : (⟨S100000x1, .f32⟩ : BufTy).Contents (Elt F) :=
  fun i => shapeCast S100000x1 n shapeCasts_S100000_S100000x1 i

variable (m : (ℓ : Loc nD τ sig) → Buf (Elt F) ℓ) (ρ : Dev nD → PrngReg)

/-- The 25 host operations before the first launch, in order. -/
abbrev prefixOps : List (HloOp τ sig (Elt F)) := hostOps0 ++ (hostOps0_1 ++ (hostOps0_2 ++ (hostOps0_3 ++ hostOps0_4)))

theorem W5_eq (c : Dev nD) : W5 m ρ c = StableHlo.after (prefixOps (F := F)) (W0 m ρ c) := by
  simp only [prefixOps, StableHlo.after_append]

/-! ## At the first launch -/

theorem first_x (c : Dev nD) : V5 m ρ c main_arg0 = m ((c : Thread nD τ).loc main_arg0) := by
  show W5 m ρ c (Proc.devRef .tc main_arg0) = _
  rw [W5_eq]
  simp only [prefixOps, hostOps0, hostOps0_1, hostOps0_2, hostOps0_3, hostOps0_4, List.cons_append, List.nil_append]
  after_results <;> rfl

theorem first_norm (c : Dev nD) :
    V5 m ρ c main_v13 = asColumn (Cert.ReferenceIdeal.Read.val_main_v9 (F := F) (m ((c : Thread nD τ).loc main_arg1))) := by
  show W5 m ρ c (Proc.devRef .tc main_v13) = _
  rw [W5_eq]
  simp only [prefixOps, hostOps0, hostOps0_1, hostOps0_2, hostOps0_3, hostOps0_4, List.cons_append, List.nil_append]
  after_results <;> rfl

/-! ## What the prefix leaves in the buffers the second launch will need -/

theorem kept_arg1 (c : Dev nD) : W5 m ρ c (Proc.devRef .tc main_arg1) = m ((c : Thread nD τ).loc main_arg1) := by
  rw [W5_eq]
  simp only [prefixOps, hostOps0, hostOps0_1, hostOps0_2, hostOps0_3, hostOps0_4, List.cons_append, List.nil_append]
  after_results <;> rfl
theorem kept_arg2 (c : Dev nD) : W5 m ρ c (Proc.devRef .tc main_arg2) = m ((c : Thread nD τ).loc main_arg2) := by
  rw [W5_eq]
  simp only [prefixOps, hostOps0, hostOps0_1, hostOps0_2, hostOps0_3, hostOps0_4, List.cons_append, List.nil_append]
  after_results <;> rfl
theorem kept_arg3 (c : Dev nD) : W5 m ρ c (Proc.devRef .tc main_arg3) = m ((c : Thread nD τ).loc main_arg3) := by
  rw [W5_eq]
  simp only [prefixOps, hostOps0, hostOps0_1, hostOps0_2, hostOps0_3, hostOps0_4, List.cons_append, List.nil_append]
  after_results <;> rfl
theorem kept_arg4 (c : Dev nD) : W5 m ρ c (Proc.devRef .tc main_arg4) = m ((c : Thread nD τ).loc main_arg4) := by
  rw [W5_eq]
  simp only [prefixOps, hostOps0, hostOps0_1, hostOps0_2, hostOps0_3, hostOps0_4, List.cons_append, List.nil_append]
  after_results <;> rfl
theorem in_norm (c : Dev nD) :
    W5 m ρ c (Proc.devRef .tc main_v12) = Cert.ReferenceIdeal.Read.val_main_v12 (F := F) (m ((c : Thread nD τ).loc main_arg2)) := by
  rw [W5_eq]
  simp only [prefixOps, hostOps0, hostOps0_1, hostOps0_2, hostOps0_3, hostOps0_4, List.cons_append, List.nil_append]
  after_results <;> rfl

/-! ## At the second launch, over what the first launch left (`W6`) -/

theorem second_agg (c : Dev nD) :
    V7 m ρ c main_v24 = aggregate (W6 m ρ c (Proc.devRef .tc main_v14)) (W6 m ρ c (Proc.devRef .tc main_arg1)) (W6 m ρ c (Proc.devRef .tc main_arg2)) := by
  show StableHlo.after hostOps1 (W6 m ρ c) (Proc.devRef .tc main_v24) = _
  after_results <;> rfl
theorem second_norm (c : Dev nD) : V7 m ρ c main_v26 = asColumn (W6 m ρ c (Proc.devRef .tc main_v12)) := by
  show StableHlo.after hostOps1 (W6 m ρ c) (Proc.devRef .tc main_v26) = _
  after_results <;> rfl
theorem second_w (c : Dev nD) : V7 m ρ c main_v25 = truncf .bf16 (W6 m ρ c (Proc.devRef .tc main_arg3)) bitsLt_bf16_f32 := by
  show StableHlo.after hostOps1 (W6 m ρ c) (Proc.devRef .tc main_v25) = _
  after_results <;> rfl
theorem second_b (c : Dev nD) : V7 m ρ c main_arg4 = W6 m ρ c (Proc.devRef .tc main_arg4) := by
  show StableHlo.after hostOps1 (W6 m ρ c) (Proc.devRef .tc main_arg4) = _
  after_results <;> rfl

end Cert.KernelIdeal.Entries

end
-- ==== Proof.Bridge.lean ====
/-
  The kernel's two block formulas against the reference's stages, index by index, on the extended reals.

  The reference multiplies `x` by the source-side normaliser broadcast along the lanes, aggregates, multiplies by the
  destination-side normaliser broadcast along the lanes, contracts with the weight matrix and adds the bias
  broadcast along the rows.  The kernel's first launch reads the normaliser as a 100000 × 1 column and forms
  `x (r, q) · n (r, 0)`: the same entry, because a column cast of a vector holds entry `r` at `(r, 0)`.  The
  kernel's second launch forms `(∑ k, (a (r, k) · n (r, 0)) · w (k, q)) + b q` with `w` the weight matrix after a
  change of float format — the identity here — which is the reference's contraction, term by term in the same order.
  No law of arithmetic beyond these identities of indices is used, so no finiteness is needed.
-/
import proofs.«177749_j70600672411872_1_alg».proof.Proof.RowScale
import proofs.«177749_j70600672411872_1_alg».proof.Proof.BlockProduct
import proofs.«177749_j70600672411872_1_alg».proof.Proof.Entries

set_option maxRecDepth 16384

noncomputable section

namespace Cert.Bridge

open Cert.KernelIdeal Cert.KernelIdeal.Gen Idealize.ShloMosaic Idealize.ShloMosaic.TcCoe Idealize.ShloMosaic.ValueIdx
open Cert.ReferenceIdeal.Read
open Cert.KernelIdeal.BlockProduct (rowOf laneOf product)
open Cert.KernelIdeal.Entries (asColumn aggregate)

/-- The weight matrix after the change of float format the kernel applies before the product. -/
abbrev narrowed (w : (⟨S128x128, .f32⟩ : BufTy).Contents (Elt Ideal)) : (⟨S128x128, .bf16⟩ : BufTy).Contents (Elt Ideal) :=
  truncf (F := Ideal) (s := S128x128) (φ := .f32) .bf16 w bitsLt_bf16_f32

/-- A vector laid out as a column holds its entry `r` at `(r, 0)`. -/
theorem asColumn_apply {F : FTy → Type} [FloatOps F] (n : (⟨S100000, .f32⟩ : BufTy).Contents (Elt F)) (r : Fin 100000) (u : Fin 1) :
    asColumn n (ix2 r u) = n (ix1 r) := by
  unfold Entries.asColumn
  exact shapeCast_apply n shapeCasts_S100000_S100000x1 (ix2 r u) (ix1 r) (by
    have hu : u.val = 0 := by omega
    rw [Shape.rowMajor_val_two, Shape.rowMajor_val_one]
    show r.val = r.val * 1 + u.val
    omega)

/-- The first launch's array is the reference's rescaled features. -/
theorem scaled_eq (x : (⟨S100000x128, .f32⟩ : BufTy).Contents (Elt Ideal)) (src : (⟨S1600000, .i32⟩ : BufTy).Contents (Elt Ideal)) :
    RowScale.scaled x (asColumn (val_main_v9 (F := Ideal) src)) = val_main_v15 (F := Ideal) x src := by
  funext i
  rw [val_main_v15_apply, val_main_v14_apply, val_main_v13_apply]
  generalize val_main_v9 (F := Ideal) src = n
  show FloatOps.mulf (F := Ideal) (φ := .f32) (x i) (asColumn n (RowScale.colOfRow i)) = FloatOps.mulf (F := Ideal) (φ := .f32) (x i) (n (idx_main_v13 (idx_main_v14 i)))
  refine congrArg (FloatOps.mulf (F := Ideal) (φ := .f32) (x i)) ?_
  have e1 : RowScale.colOfRow i = ix2 (rowOf i) (0 : Fin 1) := funext fun a => by
    match a with
    | ⟨0, _⟩ => rfl
    | ⟨1, _⟩ => rfl
  have e2 : idx_main_v13 (idx_main_v14 i) = ix1 (rowOf i) := funext fun a => by
    match a with
    | ⟨0, _⟩ => rfl
  rw [e1, e2]
  exact asColumn_apply n _ _

/-- The second launch's array, over the reference's aggregate, is the reference's result. -/
theorem product_eq (x : (⟨S100000x128, .f32⟩ : BufTy).Contents (Elt Ideal)) (src dst : (⟨S1600000, .i32⟩ : BufTy).Contents (Elt Ideal))
    (w : (⟨S128x128, .f32⟩ : BufTy).Contents (Elt Ideal)) (b : (⟨S128, .f32⟩ : BufTy).Contents (Elt Ideal)) :
    product (val_main_v25 (F := Ideal) x src dst) (asColumn (val_main_v12 (F := Ideal) dst)) (narrowed w) b
      = val_main_v32 (F := Ideal) x src dst w b := by
  funext i
  rw [val_main_v32_apply, val_main_v29_apply, val_main_v31_apply, val_main_v30_apply]
  show (∑ k : Fin 128, (val_main_v25 (F := Ideal) x src dst (ix2 (rowOf i) k) * asColumn (val_main_v12 (F := Ideal) dst) (ix2 (rowOf i) (0 : Fin 1))) * w (ix2 k (laneOf i))) + b (ix1 (laneOf i))
     = (∑ k : Fin 128, val_main_v28 (F := Ideal) x src dst (lidx_main_v29 i k) * w (ridx_main_v29 i k)) + b (idx_main_v30 (idx_main_v31 i))
  have el : ∀ k : Fin 128, lidx_main_v29 i k = ix2 (rowOf i) k := fun k => funext fun a => by
    match a with
    | ⟨0, _⟩ => rfl
    | ⟨1, _⟩ => rfl
  have er : ∀ k : Fin 128, ridx_main_v29 i k = ix2 k (laneOf i) := fun k => funext fun a => by
    match a with
    | ⟨0, _⟩ => rfl
    | ⟨1, _⟩ => rfl
  have eb : idx_main_v30 (idx_main_v31 i) = ix1 (laneOf i) := funext fun a => by
    match a with
    | ⟨0, _⟩ => rfl
  rw [eb]
  refine congrArg (· + b (ix1 (laneOf i))) (Finset.sum_congr rfl fun k _ => ?_)
  have en : idx_main_v26 (idx_main_v27 (ix2 (rowOf i) k)) = ix1 (rowOf i) := funext fun a => by
    match a with
    | ⟨0, _⟩ => rfl
  rw [el k, er k, val_main_v28_apply, val_main_v27_apply, val_main_v26_apply, en, asColumn_apply]
  rfl

end Cert.Bridge

end
-- ==== Proof.KernelValue.lean ====
/-
  The idealized kernel's result as the reference's term of the argument arrays.

  Reading the last boundary's contents at the result buffer backwards: it is the second launch's output array,
  which is `product` of what that launch finds; what it finds is the aggregate of the first launch's output array
  (the host gather and scatter-add between the launches), the destination-side normaliser as a column, the weight
  matrix and the bias; the first launch's output array is `scaled` of `x` and the source-side normaliser as a column.
  Index by index these are the reference's stages, so the result is the reference's result term of the five
  argument arrays as launched.
-/
import proofs.«177749_j70600672411872_1_alg».proof.Proof.Bridge

set_option maxRecDepth 16384

noncomputable section

namespace Cert.KernelIdeal.Result

open Cert.KernelIdeal Cert.KernelIdeal.Gen Idealize.ShloMosaic Idealize.ShloMosaic.TcCoe Idealize.SL.Sem
open Cert.ReferenceIdeal.Read
open Cert.KernelIdeal.BlockProduct (product featArr normArr weightArr biasArr)
open Cert.KernelIdeal.RowScale (scaled)
open Cert.KernelIdeal.Entries (asColumn aggregate)

variable (m : (ℓ : Loc nD τ sig) → Buf (Elt Ideal) ℓ) (ρ : Dev nD → PrngReg)

/-- The five argument arrays as launched, at their array types. -/
abbrev argX (c : Dev nD) : (⟨S100000x128, .f32⟩ : BufTy).Contents (Elt Ideal) := m ((c : Thread nD τ).loc main_arg0)
abbrev argSrc (c : Dev nD) : (⟨S1600000, .i32⟩ : BufTy).Contents (Elt Ideal) := m ((c : Thread nD τ).loc main_arg1)
abbrev argDst (c : Dev nD) : (⟨S1600000, .i32⟩ : BufTy).Contents (Elt Ideal) := m ((c : Thread nD τ).loc main_arg2)
abbrev argW (c : Dev nD) : (⟨S128x128, .f32⟩ : BufTy).Contents (Elt Ideal) := m ((c : Thread nD τ).loc main_arg3)
abbrev argB (c : Dev nD) : (⟨S128, .f32⟩ : BufTy).Contents (Elt Ideal) := m ((c : Thread nD τ).loc main_arg4)

theorem product_congr {a a' : (⟨S100000x128, .f32⟩ : BufTy).Contents (Elt Ideal)} {n n' : (⟨S100000x1, .f32⟩ : BufTy).Contents (Elt Ideal)}
    {w w' : (⟨S128x128, .bf16⟩ : BufTy).Contents (Elt Ideal)} {b b' : (⟨S128, .f32⟩ : BufTy).Contents (Elt Ideal)}
    (ha : a = a') (hn : n = n') (hw : w = w') (hb : b = b') : product a n w b = product a' n' w' b' := by
  subst ha hn hw hb; rfl

/-- The first launch's output array, of the arguments as launched. -/
theorem first_array (c : Dev nD) :
    W6 m ρ c (Proc.devRef .tc main_v14) = scaled (argX m c) (asColumn (val_main_v9 (F := Ideal) (argSrc m c))) :=
  calc W6 m ρ c (Proc.devRef .tc main_v14) = (dat0 (V5 m ρ) c).arrAt 2 cfg0.N := W6_arr m ρ c 2
    _ = scaled (V5 m ρ c main_arg0) (V5 m ρ c main_v13) := RowScale.array_eq (V5 m ρ) c
    _ = scaled (argX m c) (asColumn (val_main_v9 (F := Ideal) (argSrc m c))) := by
        rw [Entries.first_x, Entries.first_norm]

/-- THE RESULT: the last boundary's contents of the result buffer are the reference's result stage of the arguments. -/
theorem value (c : Dev nD) :
    W8 m ρ c (Proc.devRef .tc main_v27)
      = val_main_v32 (F := Ideal) (argX m c) (argSrc m c) (argDst m c) (argW m c) (argB m c) :=
  calc W8 m ρ c (Proc.devRef .tc main_v27) = (dat1 (V7 m ρ) c).arrAt 4 cfg1.N := W8_arr m ρ c 4
    _ = product (featArr (V7 m ρ) c) (normArr (V7 m ρ) c) (weightArr (V7 m ρ) c) (biasArr (V7 m ρ) c) := BlockProduct.array_eq (V7 m ρ) c
    _ = product (aggregate (scaled (argX m c) (asColumn (val_main_v9 (F := Ideal) (argSrc m c)))) (argSrc m c) (argDst m c))
          (asColumn (val_main_v12 (F := Ideal) (argDst m c))) (Bridge.narrowed (argW m c)) (argB m c) :=
        product_congr
          ((Entries.second_agg m ρ c).trans (by
            rw [first_array m ρ c, W6_of_ne m ρ c main_arg1 (by decide), W6_of_ne m ρ c main_arg2 (by decide),
              Entries.kept_arg1, Entries.kept_arg2]))
          ((Entries.second_norm m ρ c).trans (by rw [W6_of_ne m ρ c main_v12 (by decide), Entries.in_norm]))
          ((Entries.second_w m ρ c).trans (by rw [W6_of_ne m ρ c main_arg3 (by decide), Entries.kept_arg3]))
          ((Entries.second_b m ρ c).trans (by rw [W6_of_ne m ρ c main_arg4 (by decide), Entries.kept_arg4]))
    _ = product (val_main_v25 (F := Ideal) (argX m c) (argSrc m c) (argDst m c))
          (asColumn (val_main_v12 (F := Ideal) (argDst m c))) (Bridge.narrowed (argW m c)) (argB m c) := by
        rw [Bridge.scaled_eq]; rfl
    _ = val_main_v32 (F := Ideal) (argX m c) (argSrc m c) (argDst m c) (argW m c) (argB m c) :=
        Bridge.product_eq _ _ _ _ _

end Cert.KernelIdeal.Result

end
-- ==== Proof.lean ====
/-
  The certificate of a graph-convolution layer against its plain reference.

  Both programs compute, for node features `x`, edges `src → dst`, a weight matrix `W` and a bias `b`,
  `(A (x ⊙ n_out) ⊙ n_in) W + b`: the features rescaled row by row with the out-degree normaliser, gathered along
  the sources and summed along the destinations, rescaled with the in-degree normaliser, multiplied by `W` and
  shifted by `b`; a normaliser is (degree clipped below at 1)^(−1/2).  The reference does all of it with host
  operations.  The kernel does the degree counts, the gather and the scatter-add with the same host operations and
  the two dense stages — the first rescale; the second rescale, the product and the bias — as grid launches over
  25 blocks of 4000 rows, rounding the product's operands to a shorter float format.

  On the extended reals a change of float format is the identity and a block product into a zero accumulator is the
  plain sum over the contracted index, so block by block the launches write exactly the reference's two dense
  stages (`Cert.KernelIdeal.RowScale`, `Cert.KernelIdeal.BlockProduct`, `Cert.Bridge`), and the host stages in
  between are literally shared (`Cert.KernelIdeal.Entries`).  The two results are therefore one function of the
  arguments (`Cert.KernelIdeal.Result.value`); the equality uses no cancellation or distributivity, hence never the
  finiteness of the inputs.  The idealization rewrote no operation, so there is nothing to preserve.
-/
import proofs.«177749_j70600672411872_1_alg».proof.Defs
import proofs.«177749_j70600672411872_1_alg».proof.Proof.Gen.Kernel
import proofs.«177749_j70600672411872_1_alg».proof.Proof.Gen.Kernel.Skeleton
import proofs.«177749_j70600672411872_1_alg».proof.Proof.Gen.Kernel.Launch
import proofs.«177749_j70600672411872_1_alg».proof.Proof.Gen.Kernel.Points
import proofs.«177749_j70600672411872_1_alg».proof.Proof.Gen.Kernel.Frame
import proofs.«177749_j70600672411872_1_alg».proof.Proof.Gen.KernelIdeal
import proofs.«177749_j70600672411872_1_alg».proof.Proof.Gen.KernelIdeal.Skeleton
import proofs.«177749_j70600672411872_1_alg».proof.Proof.Gen.KernelIdeal.Launch
import proofs.«177749_j70600672411872_1_alg».proof.Proof.Gen.KernelIdeal.Points
import proofs.«177749_j70600672411872_1_alg».proof.Proof.Gen.KernelIdeal.Frame
import proofs.«177749_j70600672411872_1_alg».proof.Proof.Gen.ReferenceIdeal
import proofs.«177749_j70600672411872_1_alg».proof.Proof.Gen.Pre_finite_inputs
import proofs.«177749_j70600672411872_1_alg».proof.Proof.Gen.ReferenceIdeal.Run
import proofs.«177749_j70600672411872_1_alg».proof.Proof.Gen.ReferenceIdeal.Read
import proofs.«177749_j70600672411872_1_alg».proof.Proof.KernelRun
import proofs.«177749_j70600672411872_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's result stage of the arguments. -/
theorem algebraic : Cert.algebraic_KernelIdeal_ReferenceIdeal := by
  intro m ρ m' ρ' _ hagree
  refine ⟨fun c => Cert.ReferenceIdeal.Read.val_main_v32 (F := Ideal)
      (Cert.KernelIdeal.Result.argX m c) (Cert.KernelIdeal.Result.argSrc m c) (Cert.KernelIdeal.Result.argDst m c)
      (Cert.KernelIdeal.Result.argW m c) (Cert.KernelIdeal.Result.argB m c), ?_, ?_⟩
  · exact (θ_run Cert.KernelIdeal.defs _ _).mono
      (fun r h c => ⟨(h c).1.trans (Cert.KernelIdeal.Result.value m ρ c), (h c).2⟩)
      (Cert.KernelIdeal.Whole.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v32_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
